-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x1 : Shape := ⟨2, ![256, 1]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x256 .f32) (main_arg8 : FVec F S256 .f32) (main_arg9 : FVec F S256x1 .f32) (main_arg10 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg7
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S40000x128 .f32) (main_arg1 : IVec S640000 32) (main_arg2 : IVec S640000 32) (main_arg3 : FVec F S128x256 .f32) (main_arg4 : FVec F S256 .f32) (main_arg5 : FVec F S256x64 .f32) (main_arg6 : FVec F S64 .f32) (main_arg7 : FVec F S64x256 .f32) (main_arg8 : FVec F S256 .f32) (main_arg9 : FVec F S256x1 .f32) (main_arg10 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_arg7 main_arg8 main_arg9 main_arg10 main_v13 main_v16
-- ==== Kernel.lean ====
abbrev S40000x128 : Shape := ⟨2, ![40000, 128]⟩
abbrev S640000 : Shape := ⟨1, ![640000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x1 : Shape := ⟨2, ![256, 1]⟩
abbrev S1 : Shape := ⟨1, ![1]⟩
abbrev S_ : Shape := ⟨0, ![]⟩
abbrev S640000x1 : Shape := ⟨2, ![640000, 1]⟩
abbrev S640000x128 : Shape := ⟨2, ![640000, 128]⟩
abbrev S1x256 : Shape := ⟨2, ![1, 256]⟩
abbrev S1x64 : Shape := ⟨2, ![1, 64]⟩
abbrev S2000x128 : Shape := ⟨2, ![2000, 128]⟩
abbrev S2000x256 : Shape := ⟨2, ![2000, 256]⟩
abbrev S2000x64 : Shape := ⟨2, ![2000, 64]⟩
abbrev S2000 : Shape := ⟨1, ![2000]⟩
abbrev S2000x1 : Shape := ⟨2, ![2000, 1]⟩
abbrev S1x1 : Shape := ⟨2, ![1, 1]⟩

abbrev nBuf : Space → Nat
  | .hbm => 40
  | .vmem => 7
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .f32⟩
  | .hbm, ⟨21, _⟩ => ⟨S40000x128, .f32⟩
  | .hbm, ⟨22, _⟩ => ⟨S640000x1, .i32⟩
  | .hbm, ⟨23, _⟩ => ⟨S40000x128, .f32⟩
  | .hbm, ⟨24, _⟩ => ⟨S1x256, .f32⟩
  | .hbm, ⟨25, _⟩ => ⟨S1x64, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S_, .f32⟩
  | .hbm, ⟨34, _⟩ => ⟨S1x256, .f32⟩
  | .hbm, ⟨35, _⟩ => ⟨S1x256, .f32⟩
  | .hbm, ⟨36, _⟩ => ⟨S1x1, .f32⟩
  | .hbm, ⟨37, _⟩ => ⟨S1x1, .f32⟩
  | .hbm, ⟨38, _⟩ => ⟨S1x1, .f32⟩
  | .hbm, ⟨39, _⟩ => ⟨S1, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S1x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_cst : Ref sig .tc := ⟨.hbm, 33, rfl⟩
abbrev main_call0_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S256_S1x256 : S256.ShapeCasts S1x256
  shapeCasts_S64_S1x64 : S64.ShapeCasts S1x64
  inb_S1x64_S1x64_0_0 : ∀ a, (![0, 0] : Fin 2 → Nat) a + S1x64.size a ≤ S1x64.size a
  h_S1x64 : 0 < S1x64.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  reduces_S2000x64_S64 : S2000x64.Reduces [0] S64
  bcast_S_S1x64 : S_.BroadcastsInDim S1x64 (![] : Fin 0 → Fin S1x64.rank)
  bcast_S256_S1x256_1 : S256.BroadcastsInDim S1x256 (![1] : Fin 1 → Fin S1x256.rank)
  bcast_S_S1x256 : S_.BroadcastsInDim S1x256 (![] : Fin 0 → Fin S1x256.rank)
  bcast_S1_S1x1_1 : S1.BroadcastsInDim S1x1 (![1] : Fin 1 → Fin S1x1.rank)
  shapeCasts_S1x1_S1 : S1x1.ShapeCasts S1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  dot_S1x64_S64x256_S1x256_1_0_0_1_n_n_wf : DotDims.WF S1x64 S64x256 S1x256 [1] [0] [0] [1] [] []
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x256 : Shape := ⟨2, ![64, 256]⟩
abbrev S256x1 : Shape := ⟨2, ![256, 1]⟩
abbrev S1 : Shape := ⟨1, ![1]⟩
abbrev S_ : Shape := ⟨0, ![]⟩
abbrev S1x64 : Shape := ⟨2, ![1, 64]⟩
abbrev S640000x1 : Shape := ⟨2, ![640000, 1]⟩
abbrev S640000x128 : Shape := ⟨2, ![640000, 128]⟩
abbrev S40000x256 : Shape := ⟨2, ![40000, 256]⟩
abbrev S1x256 : Shape := ⟨2, ![1, 256]⟩
abbrev S40000x64 : Shape := ⟨2, ![40000, 64]⟩
abbrev S40000 : Shape := ⟨1, ![40000]⟩
abbrev S40000x1 : Shape := ⟨2, ![40000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .f32⟩
  | .hbm, ⟨12, _⟩ => ⟨S1x64, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S40000x128, .f32⟩
  | .hbm, ⟨24, _⟩ => ⟨S640000x1, .i32⟩
  | .hbm, ⟨25, _⟩ => ⟨S40000x128, .f32⟩
  | .hbm, ⟨26, _⟩ => ⟨S40000x256, .f32⟩
  | .hbm, ⟨27, _⟩ => ⟨S1x256, .f32⟩
  | .hbm, ⟨28, _⟩ => ⟨S40000x256, .f32⟩
  | .hbm, ⟨29, _⟩ => ⟨S40000x256, .f32⟩
  | .hbm, ⟨30, _⟩ => ⟨S_, .f32⟩
  | .hbm, ⟨31, _⟩ => ⟨S40000x256, .f32⟩
  | .hbm, ⟨32, _⟩ => ⟨S40000x256, .f32⟩
  | .hbm, ⟨33, _⟩ => ⟨S40000x64, .f32⟩
  | .hbm, ⟨34, _⟩ => ⟨S1x64, .f32⟩
  | .hbm, ⟨35, _⟩ => ⟨S40000x64, .f32⟩
  | .hbm, ⟨36, _⟩ => ⟨S40000x64, .f32⟩
  | .hbm, ⟨37, _⟩ => ⟨S_, .f32⟩
  | .hbm, ⟨38, _⟩ => ⟨S40000, .f32⟩
  | .hbm, ⟨39, _⟩ => ⟨S_, .f32⟩
  | .hbm, ⟨40, _⟩ => ⟨S40000, .f32⟩
  | .hbm, ⟨41, _⟩ => ⟨S40000, .f32⟩
  | .hbm, ⟨42, _⟩ => ⟨S40000x1, .f32⟩
  | .hbm, ⟨43, _⟩ => ⟨S40000x64, .f32⟩
  | .hbm, ⟨44, _⟩ => ⟨S40000x64, .f32⟩
  | .hbm, ⟨45, _⟩ => ⟨S40000x64, .f32⟩
  | .hbm, ⟨46, _⟩ => ⟨S_, .f32⟩
  | .hbm, ⟨47, _⟩ => ⟨S40000, .f32⟩
  | .hbm, ⟨48, _⟩ => ⟨S40000x1, .f32⟩
  | .hbm, ⟨49, _⟩ => ⟨S40000x64, .f32⟩
  | .hbm, ⟨50, _⟩ => ⟨S40000x64, .f32⟩
  | .hbm, ⟨51, _⟩ => ⟨S_, .f32⟩
  | .hbm, ⟨52, _⟩ => ⟨S64, .f32⟩
  | .hbm, ⟨53, _⟩ => ⟨S1x64, .f32⟩
  | .hbm, ⟨54, _⟩ => ⟨S1x64, .f32⟩
  | .hbm, ⟨55, _⟩ => ⟨S_, .i32⟩
  | .hbm, ⟨56, _⟩ => ⟨S640000, .i32⟩
  | .hbm, ⟨57, _⟩ => ⟨S640000, .i1⟩
  | .hbm, ⟨58, _⟩ => ⟨S_, .i32⟩
  | .hbm, ⟨59, _⟩ => ⟨S640000, .i32⟩
  | .hbm, ⟨60, _⟩ => ⟨S640000, .i32⟩
  | .hbm, ⟨61, _⟩ => ⟨S640000, .i32⟩
  | .hbm, ⟨62, _⟩ => ⟨S640000x1, .i32⟩
  | .hbm, ⟨63, _⟩ => ⟨S640000x128, .f32⟩
  | .hbm, ⟨64, _⟩ => ⟨S_, .f32⟩
  | .hbm, ⟨65, _⟩ => ⟨S40000x128, .f32⟩
  | .hbm, ⟨66, _⟩ => ⟨S640000x1, .i32⟩
  | .hbm, ⟨67, _⟩ => ⟨S40000x128, .f32⟩
  | .hbm, ⟨68, _⟩ => ⟨S40000x256, .f32⟩
  | .hbm, ⟨69, _⟩ => ⟨S1x256, .f32⟩
  | .hbm, ⟨70, _⟩ => ⟨S40000x256, .f32⟩
  | .hbm, ⟨71, _⟩ => ⟨S40000x256, .f32⟩
  | .hbm, ⟨72, _⟩ => ⟨S_, .f32⟩
  | .hbm, ⟨73, _⟩ => ⟨S40000x256, .f32⟩
  | .hbm, ⟨74, _⟩ => ⟨S40000x256, .f32⟩
  | .hbm, ⟨75, _⟩ => ⟨S40000x64, .f32⟩
  | .hbm, ⟨76, _⟩ => ⟨S1x64, .f32⟩
  | .hbm, ⟨77, _⟩ => ⟨S40000x64, .f32⟩
  | .hbm, ⟨78, _⟩ => ⟨S40000x64, .f32⟩
  | .hbm, ⟨79, _⟩ => ⟨S_, .f32⟩
  | .hbm, ⟨80, _⟩ => ⟨S40000, .f32⟩
  | .hbm, ⟨81, _⟩ => ⟨S_, .f32⟩
  | .hbm, ⟨82, _⟩ => ⟨S40000, .f32⟩
  | .hbm, ⟨83, _⟩ => ⟨S40000, .f32⟩
  | .hbm, ⟨84, _⟩ => ⟨S40000x1, .f32⟩
  | .hbm, ⟨85, _⟩ => ⟨S40000x64, .f32⟩
  | .hbm, ⟨86, _⟩ => ⟨S40000x64, .f32⟩
  | .hbm, ⟨87, _⟩ => ⟨S40000x64, .f32⟩
  | .hbm, ⟨88, _⟩ => ⟨S_, .f32⟩
  | .hbm, ⟨89, _⟩ => ⟨S40000, .f32⟩
  | .hbm, ⟨90, _⟩ => ⟨S40000x1, .f32⟩
  | .hbm, ⟨91, _⟩ => ⟨S40000x64, .f32⟩
  | .hbm, ⟨92, _⟩ => ⟨S40000x64, .f32⟩
  | .hbm, ⟨93, _⟩ => ⟨S_, .f32⟩
  | .hbm, ⟨94, _⟩ => ⟨S64, .f32⟩
  | .hbm, ⟨95, _⟩ => ⟨S1x64, .f32⟩
  | .hbm, ⟨96, _⟩ => ⟨S1x64, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S_, .f32⟩
  | .hbm, ⟨101, _⟩ => ⟨S1x256, .f32⟩
  | .hbm, ⟨102, _⟩ => ⟨S1x256, .f32⟩
  | .hbm, ⟨103, _⟩ => ⟨S1x1, .f32⟩
  | .hbm, ⟨104, _⟩ => ⟨S1x1, .f32⟩
  | .hbm, ⟨105, _⟩ => ⟨S1x1, .f32⟩
  | .hbm, ⟨106, _⟩ => ⟨S1, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call2_cst : Ref sig .tc := ⟨.hbm, 100, rfl⟩
abbrev main_call2_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  bcast_S_S1x64 : S_.BroadcastsInDim S1x64 (![] : Fin 0 → Fin S1x64.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  reducesTo_S40000x64_S40000_d1 : S40000x64.ReducesTo [1] S40000
  h_S_ : 0 < S_.numel
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x64_0_1 : S40000x1.BroadcastsInDim S40000x64 (![0, 1] : Fin 2 → Fin S40000x64.rank)
  reducesTo_S40000x64_S64_d0 : S40000x64.ReducesTo [0] S64
  bcast_S_S1x256 : S_.BroadcastsInDim S1x256 (![] : Fin 0 → Fin S1x256.rank)
  bcast_S1_S1x1_1 : S1.BroadcastsInDim S1x1 (![1] : Fin 1 → Fin S1x1.rank)
  shapeCasts_S1x1_S1 : S1x1.ShapeCasts S1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x64_S40000x64_1_0_0_1_n_n_wf : DotDims.WF S40000x256 S256x64 S40000x64 [1] [0] [0] [1] [] []
  dot_S1x64_S64x256_S1x256_1_0_0_1_n_n_wf : DotDims.WF S1x64 S64x256 S1x256 [1] [0] [0] [1] [] []
  dot_S1x256_S256x1_S1x1_1_0_0_1_n_n_wf : DotDims.WF S1x256 S256x1 S1x1 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x64_S40000x64_1_0_0_1_n_n : DotDims S40000x256 S256x64 S40000x64 where
  lhsContracting := [1]
  rhsContracting := [0]
  lhsNonContracting := [0]
  rhsNonContracting := [1]
  lhsBatch := []
  rhsBatch := []
  wf := dot_S40000x256_S256x64_S40000x64_1_0_0_1_n_n_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.Pieces.lean ====
import proofs.«171319_j33406255628786_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one grid point leaves in the pooled vector's resident block, as values.

  At the first point the body stores the zero block, reads it back, and stores
  `zero + partial`; at every later point it reads what the point before left and stores
  `previous + partial`.  Here `partial` is the tile's column sum of row-softmaxes (the third
  payload) and the addition is the first payload; the second payload is the zero block.  Both facts
  hold for any float instance: they only read the body's covering stores back through whole buffers.
-/

namespace Cert.KernelIdeal.Pieces

open Cert.KernelIdeal Cert.KernelIdeal.Gen

variable {F : FTy → Type} [FloatOps F]

theorem offsets_zero : (![0, 0] : Fin 2 → Nat) = fun _ => 0 := funext fun a => by fin_cases a <;> rfl

/-- A later point: the block ends at `previous + partial`. -/
theorem later_point (c : Dev nD) (i : grid0.Coords)
    (a1 : Memref sig .tc .vmem S2000x128 .f32) (h1 : a1.IsWhole) (a2 : Memref sig .tc .vmem S128x256 .f32) (h2 : a2.IsWhole)
    (a3 : Memref sig .tc .vmem S1x256 .f32) (h3 : a3.IsWhole) (a4 : Memref sig .tc .vmem S256x64 .f32) (h4 : a4.IsWhole)
    (a5 : Memref sig .tc .vmem S1x64 .f32) (h5 : a5.IsWhole) (a6 : Memref sig .tc .vmem S1x64 .f32) (h6 : a6.IsWhole)
    (hc : ¬cond0_0 i) (x0 : Vec F S2000x128 .f32) (x1 : Vec F S128x256 .f32) (x2 : Vec F S1x256 .f32)
    (x3 : Vec F S256x64 .f32) (x4 : Vec F S1x64 .f32) (xo : Vec F S1x64 .f32) :
    out0_B_5 c i a1 h1 a2 h2 a3 h3 a4 h4 a5 h5 a6 h6 hc x0 x1 x2 x3 x4 xo = k0_pay1 (k0_pay3 x0 x1 x2 x3 x4) xo := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  sl_unfold_words
  rw [View.canon_unit_zero offsets_zero]
  simp only [View.readAt_eq_ld, h1.read_unread, h2.read_unread, h3.read_unread, h4.read_unread, h5.read_unread,
    h6.read_unread, View.ld_unit_zero (S := S2000x128) offsets_zero, View.ld_unit_zero (S := S128x256) offsets_zero,
    View.ld_unit_zero (S := S1x256) offsets_zero, View.ld_unit_zero (S := S256x64) offsets_zero,
    View.ld_unit_zero (S := S1x64) offsets_zero]

/-- The first point: the block ends at `zero + partial`. -/
theorem first_point (c : Dev nD) (i : grid0.Coords)
    (a1 : Memref sig .tc .vmem S2000x128 .f32) (h1 : a1.IsWhole) (a2 : Memref sig .tc .vmem S128x256 .f32) (h2 : a2.IsWhole)
    (a3 : Memref sig .tc .vmem S1x256 .f32) (h3 : a3.IsWhole) (a4 : Memref sig .tc .vmem S256x64 .f32) (h4 : a4.IsWhole)
    (a5 : Memref sig .tc .vmem S1x64 .f32) (h5 : a5.IsWhole) (a6 : Memref sig .tc .vmem S1x64 .f32) (h6 : a6.IsWhole)
    (hc : cond0_0 i) (x0 : Vec F S2000x128 .f32) (x1 : Vec F S128x256 .f32) (x2 : Vec F S1x256 .f32)
    (x3 : Vec F S256x64 .f32) (x4 : Vec F S1x64 .f32) :
    out0_A_5 c i a1 h1 a2 h2 a3 h3 a4 h4 a5 h5 a6 h6 hc x0 x1 x2 x3 x4 = k0_pay1 (k0_pay3 x0 x1 x2 x3 x4) (k0_pay2 (F := F)) := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread,
    View.ld_unit_zero (S := S2000x128) offsets_zero, View.ld_unit_zero (S := S128x256) offsets_zero,
    View.ld_unit_zero (S := S1x256) offsets_zero, View.ld_unit_zero (S := S256x64) offsets_zero,
    View.ld_unit_zero (S := S1x64) offsets_zero]

end Cert.KernelIdeal.Pieces

end
-- ==== Proof.Running.lean ====
import proofs.«171319_j33406255628786_1_alg».proof.Proof.Pieces
import Idealize.ShloMosaic.Lib.Pipeline.Value

noncomputable section

open Idealize.ShloMosaic Idealize.ShloMosaic.TcCoe Idealize.SL.Sem
open Idealize.ShloMosaic.Pipeline (Dat)

/-!
  The pooled vector across the grid, for any float instance.

  The resident [1, 64] block is an accumulator carried from point to point: after point 0 it holds
  `zero + partial 0`, after point `n + 1` what point `n` left plus `partial (n + 1)`, where
  `partial t` is the body's column sum of row-softmaxes over tile `t`'s blocks.  The block's index
  never moves, so it is written back once, after point 19, and that one block is the whole result
  array: the array ends at the running sum after the last point.
-/

namespace Cert.KernelIdeal.Running

open Cert.KernelIdeal Cert.KernelIdeal.Gen

variable {F : FTy → Type} [FloatOps F]
variable (m : (ℓ : Loc nD τ sig) → Buf (Elt F) ℓ) (ρ : Dev nD → PrngReg)

/-- Tile `t`'s contribution: the body's pooled softmax of the point's five input blocks. -/
def tilePartial (c : Dev nD) (t : Fin cfg0.N) : Vec F S1x64 .f32 :=
  k0_pay3 (iblk m c 0 t) (iblk m c 1 t) (iblk m c 2 t) (iblk m c 3 t) (iblk m c 4 t)

/-- The accumulator after point `n`, in point order. -/
def running (c : Dev nD) : (n : ℕ) → n < cfg0.N → Vec F S1x64 .f32
  | 0, h => k0_pay1 (tilePartial m c ⟨0, h⟩) (k0_pay2 (F := F))
  | n + 1, h => k0_pay1 (tilePartial m c ⟨n + 1, h⟩) (running c n (Nat.lt_of_succ_lt h))

/-- What the output's staging buffer holds after point `n` is the accumulator there: by induction on
    the point, the first point by the reset case and every later one by the carrying case. -/
theorem staged_eq_running (c : Dev nD) : ∀ (n : ℕ) (h : n < cfg0.N), outsAt0 m c n h = running m c n h
  | 0, h =>
    (outsAt0_A m c ⟨0, h⟩ rfl).trans
      (Pieces.first_point c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩)
        (ms0_5 ⟨0, h⟩) (hs0_5 ⟨0, h⟩) ((hcond0_0 ⟨0, h⟩).mpr rfl)
        (iblk m c 0 ⟨0, h⟩) (iblk m c 1 ⟨0, h⟩) (iblk m c 2 ⟨0, h⟩) (iblk m c 3 ⟨0, h⟩) (iblk m c 4 ⟨0, h⟩))
  | n + 1, h => by
    have hN : cfg0.N = 20 := N_0
    have hB : ¬(⟨n + 1, h⟩ : Fin cfg0.N).val % 20 = 0 := by dsimp only; omega
    refine (outsAt0_B m c ⟨n + 1, h⟩ hB).trans ?_
    refine (Pieces.later_point c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
        (ms0_4 ⟨n + 1, h⟩) (hs0_4 ⟨n + 1, h⟩) (ms0_5 ⟨n + 1, h⟩) (hs0_5 ⟨n + 1, h⟩)
        (fun hc => hB ((hcond0_0 ⟨n + 1, h⟩).mp hc))
        (iblk m c 0 ⟨n + 1, h⟩) (iblk m c 1 ⟨n + 1, h⟩) (iblk m c 2 ⟨n + 1, h⟩) (iblk m c 3 ⟨n + 1, h⟩) (iblk m c 4 ⟨n + 1, h⟩)
        (outsAt0 m c n (Nat.lt_of_succ_lt h))).trans ?_
    show k0_pay1 _ (outsAt0 m c n _) = k0_pay1 _ (running m c n _)
    rw [staged_eq_running c n]
    rfl

/-- The last grid point. -/
abbrev lastPoint : Fin cfg0.N := ⟨19, by rw [show cfg0.N = 20 from N_0]; decide⟩

/-- The pooled vector after the whole grid, as contents of the region's result array. -/
abbrev pooled (c : Dev nD) : Buf (Elt F) ((c : Thread nD τ).loc main_v12) := running m c 19 lastPoint.isLt

/-- The one write-back, after point 19, writes the accumulator: block (0, 0) of the [1, 64] array read
    through zero offsets is the array itself. -/
theorem flushed_eq (c : Dev nD) (t : Fin cfg0.N) (hf : (cfg0.win 5).flush t = true) :
    (dats m 0 c).flushed 5 t = ((cfg0.win 5).blk t).view.read (Elt F) (pooled m c) := by
  have hN : cfg0.N = 20 := N_0
  have h19 : t.val = 19 := by have := (flush0_5 t).mp hf; have := t.isLt; omega
  obtain rfl : t = lastPoint := Fin.ext h19
  show (cfg0.win 5).cut (grid0.coords lastPoint) ((dats m 0 c).after 5 lastPoint) = _
  rw [after0_5, staged_eq_running]
  have hz' : (fun a => win0_5.index lastPoint a * main_v12.ty.shape.size a) = fun _ => 0 :=
    funext fun a => by fin_cases a <;> decide
  exact (Memref.read_access_unit_zero (Elt F) main_v12 hz' (fun a => by rw [congrFun hz' a]; simp) (pooled m c)).symm

/-- So the region's result array ends at the accumulator after the last point: point 19's block covers it. -/
theorem array_eq_pooled (c : Dev nD) : (dats m 0 c).arrAt 5 cfg0.N = pooled m c :=
  (dats m 0 c).arrAt_eq_of_cover 5 (pooled m c) (flushed_eq m c) fun i =>
    ⟨lastPoint, (flush0_5 lastPoint).mpr rfl, by
      show i ∈ ((View.whole main_v12).slice (win0_5.rect lastPoint)).set
      rw [View.set_slice_whole, Rect.mem_set_unit]
      intro a
      have h0 : (i 0 : Nat) < 1 := (i 0).isLt
      have h1 : (i 1 : Nat) < 64 := (i 1).isLt
      match a with
      | ⟨0, _⟩ =>
        show win0_5.index lastPoint 0 * win0_5.size 0 ≤ (i 0 : Nat) ∧ (i 0 : Nat) < win0_5.index lastPoint 0 * win0_5.size 0 + win0_5.xsize (grid0.coords lastPoint) 0
        rw [show win0_5.index lastPoint 0 * win0_5.size 0 = 0 from by decide +kernel, show win0_5.xsize (grid0.coords lastPoint) 0 = 1 from by decide +kernel]; omega
      | ⟨1, _⟩ =>
        show win0_5.index lastPoint 1 * win0_5.size 1 ≤ (i 1 : Nat) ∧ (i 1 : Nat) < win0_5.index lastPoint 1 * win0_5.size 1 + win0_5.xsize (grid0.coords lastPoint) 1
        rw [show win0_5.index lastPoint 1 * win0_5.size 1 = 0 from by decide +kernel, show win0_5.xsize (grid0.coords lastPoint) 1 = 64 from by decide +kernel]; omega⟩

end Cert.KernelIdeal.Running

end
-- ==== Proof.RowSoftmax.lean ====
/-
  The pooled row-softmax, as mathematics over the extended reals.

  For one node, a feature row `x : Fin 128 → EReal` is sent through two affine layers with a
  rectifier between them,
      hid x k   = max (∑ j, x j · W1 (j, k) + b1 k) 0,
      logit x c = ∑ k, hid x k · W2 (k, c) + b2 c,
  and the 64 logits are normalised by a softmax whose shift is the row's maximum (a fold of `max`
  from −∞, joined once more with −∞, as both programs compute it):
      soft x c = exp (logit x c − M x) / ∑ c', exp (logit x c' − M x).
  The pooled vector is the column sum of `soft` over all 40000 nodes.  The kernel walks the nodes in
  20 tiles of 2000 rows; the last section regroups the sum over all nodes as the sum over the tiles
  of the sums inside each tile, which on the extended reals needs only that addition is commutative
  and associative.
-/
import Idealize.ShloMosaic.PureOps.Ideal
import Idealize.ShloMosaic.PureOps.Ideal.Laws
import Idealize.ShloMosaic.Lib.ValueIdx

noncomputable section

open scoped BigOperators

namespace Cert.RowSoftmax

open Idealize.ShloMosaic Idealize.ShloMosaic.ValueIdx

/-- The f32 pattern of −∞, read as an extended real. -/
abbrev negInf : EReal := Ideal.ofBits .f32 0xFF800000#32

/-- The f32 pattern of +0.0, read as an extended real. -/
abbrev zeroW : EReal := Ideal.ofBits .f32 0x00000000#32

section Row

variable (W1 : (⟨2, ![128, 256]⟩ : Shape).Idx → EReal) (b1 : Fin 256 → EReal)
  (W2 : (⟨2, ![256, 64]⟩ : Shape).Idx → EReal) (b2 : Fin 64 → EReal)

/-- The rectified first layer of a feature row. -/
def hid (x : Fin 128 → EReal) (k : Fin 256) : EReal :=
  max ((∑ j : Fin 128, x j * W1 (ix2 j k)) + b1 k) zeroW

/-- The second layer: the row's 64 logits. -/
def logit (x : Fin 128 → EReal) (c : Fin 64) : EReal :=
  (∑ k : Fin 256, hid W1 b1 x k * W2 (ix2 k c)) + b2 c

/-- The softmax's shift: the row's largest logit, folded from −∞ and joined with −∞ once more. -/
def rowMax (x : Fin 128 → EReal) : EReal :=
  max negInf ((Finset.univ : Finset (Fin 64)).fold max negInf (logit W1 b1 W2 b2 x))

/-- The shifted exponentials. -/
def expo (x : Fin 128 → EReal) (c : Fin 64) : EReal :=
  Ideal.exp (logit W1 b1 W2 b2 x c - rowMax W1 b1 W2 b2 x)

/-- The row's softmax. -/
def soft (x : Fin 128 → EReal) (c : Fin 64) : EReal :=
  Ideal.div (expo W1 b1 W2 b2 x c) (∑ c' : Fin 64, expo W1 b1 W2 b2 x c')

/-! The definitions, unfolded once here for the modules that read programs against them. -/

theorem hid_eq (x : Fin 128 → EReal) (k : Fin 256) :
    hid W1 b1 x k = max ((∑ j : Fin 128, x j * W1 (ix2 j k)) + b1 k) zeroW := by unfold hid; rfl

theorem logit_eq (x : Fin 128 → EReal) (c : Fin 64) :
    logit W1 b1 W2 b2 x c = (∑ k : Fin 256, hid W1 b1 x k * W2 (ix2 k c)) + b2 c := by unfold logit; rfl

theorem rowMax_eq (x : Fin 128 → EReal) :
    rowMax W1 b1 W2 b2 x = max negInf ((Finset.univ : Finset (Fin 64)).fold max negInf (logit W1 b1 W2 b2 x)) := by
  unfold rowMax; rfl

theorem expo_eq (x : Fin 128 → EReal) (c : Fin 64) :
    expo W1 b1 W2 b2 x c = Ideal.exp (logit W1 b1 W2 b2 x c - rowMax W1 b1 W2 b2 x) := by unfold expo; rfl

theorem soft_eq (x : Fin 128 → EReal) (c : Fin 64) :
    soft W1 b1 W2 b2 x c = Ideal.div (expo W1 b1 W2 b2 x c) (∑ c' : Fin 64, expo W1 b1 W2 b2 x c') := by
  unfold soft; rfl

end Row

/-! ## Regrouping the nodes by tile -/

/-- Node `2000·t + r`: row `r` of tile `t`. -/
def node (t : Fin 20) (r : Fin 2000) : Fin 40000 :=
  ⟨2000 * t.val + r.val, by have := t.isLt; have := r.isLt; omega⟩

/-- A sum over all 40000 nodes is the sum over the 20 tiles of the sums over each tile's 2000 rows. -/
theorem sum_nodes_eq_sum_tiles {M : Type*} [AddCommMonoid M] (f : Fin 40000 → M) :
    ∑ n : Fin 40000, f n = ∑ t : Fin 20, ∑ r : Fin 2000, f (node t r) := by
  rw [← Finset.sum_product', Finset.univ_product_univ]
  refine (Fintype.sum_equiv (finProdFinEquiv (m := 20) (n := 2000)) (fun p => f (node p.1 p.2)) f
    (fun p => ?_)).symm
  refine congrArg f (Fin.ext ?_)
  show 2000 * p.1.val + p.2.val = p.2.val + 2000 * p.1.val
  omega

end Cert.RowSoftmax

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.TileValue.lean ====
import proofs.«171319_j33406255628786_1_alg».proof.Proof.Gen.KernelIdeal.Skeleton
import proofs.«171319_j33406255628786_1_alg».proof.Proof.RowSoftmax
import proofs.«171319_j33406255628786_1_alg».proof.Proof.LibRows
import proofs.«171319_j33406255628786_1_alg».proof.Proof.LibMat

noncomputable section

open scoped BigOperators

/-!
  One tile's contribution, read at an index over the extended reals.

  The body's arithmetic on a tile has three stages: the rectified first layer of the tile's 2000
  rows (a matrix product with `W1`, the bias row added to every row, the maximum with zero); the
  logits (a matrix product with `W2` and its bias row); and the pooled softmax (each row shifted by
  its maximum, exponentiated, divided by the row's sum, and the 2000 rows summed column by column).
  Changes of float format are the identity here, a matrix product into the zero accumulator is the
  plain sum over the contracted coordinate, and the lane and row reductions are plain sums and a
  fold of `max`.  So at column `c` the tile contributes `∑ r, soft (row r of the tile) c`.
-/

namespace Cert.KernelIdeal.Tile

open Cert.KernelIdeal Cert.KernelIdeal.Gen
open Idealize.ShloMosaic Idealize.ShloMosaic.ValueIdx Cert.RowSoftmax

/-- The rectified first layer of a tile. -/
def hiddenOf (x0 : Vec Ideal S2000x128 .f32) (x1 : Vec Ideal S128x256 .f32) (x2 : Vec Ideal S1x256 .f32) :
    FVec Ideal S2000x256 .f32 :=
  maximumf
    (addf
      (matmul dot_S2000x128_S128x256_S2000x256_1_0_0_1_n_n none
        (truncf .bf16 (shapeCast S2000x128 x0 shapeCasts_S2000x128_S2000x128) bitsLt_bf16_f32)
        (truncf .bf16 x1 bitsLt_bf16_f32) (constant S2000x256 .f32 0x00000000#32))
      (broadcastTo S2000x256 (shapeCast S1x256 x2 shapeCasts_S1x256_S1x256) broadcasts_S1x256_S2000x256))
    (broadcast S2000x256 (Scalar.ofBits .f32 0x00000000#32 : Ideal .f32))

/-- The tile's logits from its rectified first layer. -/
def logitsOf (Hd : FVec Ideal S2000x256 .f32) (x3 : Vec Ideal S256x64 .f32) (x4 : Vec Ideal S1x64 .f32) :
    FVec Ideal S2000x64 .f32 :=
  addf
    (matmul dot_S2000x256_S256x64_S2000x64_1_0_0_1_n_n none (truncf .bf16 Hd bitsLt_bf16_f32)
      (truncf .bf16 x3 bitsLt_bf16_f32) (constant S2000x64 .f32 0x00000000#32))
    (broadcastTo S2000x64 (shapeCast S1x64 x4 shapeCasts_S1x64_S1x64) broadcasts_S1x64_S2000x64)

/-- The exponentials of the logits shifted by their row's maximum. -/
def shiftedExp (L : FVec Ideal S2000x64 .f32) : FVec Ideal S2000x64 .f32 :=
  exp (subf L
    (broadcastTo S2000x64
      (shapeCast S2000x1
        (maximumf (broadcast S2000 (Scalar.ofBits .f32 0xFF800000#32 : Ideal .f32))
          (multiReduction .maximumf [1] S2000 L 0xFF800000#32 reduces_S2000x64_S2000 (.inl rfl) rfl))
        shapeCasts_S2000_S2000x1)
      broadcasts_S2000x1_S2000x64))

/-- The column sums of the rows' softmaxes. -/
def pooledOf (L : FVec Ideal S2000x64 .f32) : FVec Ideal S1x64 .f32 :=
  shapeCast S1x64
    (multiReduction .add [0] S64
      (divf (shiftedExp L)
        (broadcastTo S2000x64
          (shapeCast S2000x1
            (multiReduction .add [1] S2000 (shiftedExp L) 0x00000000#32 reduces_S2000x64_S2000 (.inl rfl) rfl)
            shapeCasts_S2000_S2000x1)
          broadcasts_S2000x1_S2000x64))
      0x00000000#32 reduces_S2000x64_S64 (.inl rfl) rfl)
    shapeCasts_S64_S1x64

/-- The body's third payload is the three stages composed. -/
theorem payload_eq (x0 : Vec Ideal S2000x128 .f32) (x1 : Vec Ideal S128x256 .f32) (x2 : Vec Ideal S1x256 .f32)
    (x3 : Vec Ideal S256x64 .f32) (x4 : Vec Ideal S1x64 .f32) :
    k0_pay3 (F := Ideal) x0 x1 x2 x3 x4 = pooledOf (logitsOf (hiddenOf x0 x1 x2) x3 x4) := rfl

/-- The first stage at row `r`, unit `k`. -/
theorem hiddenOf_apply (x0 : Vec Ideal S2000x128 .f32) (x1 : Vec Ideal S128x256 .f32) (x2 : Vec Ideal S1x256 .f32)
    (r : Fin 2000) (k : Fin 256) :
    hiddenOf x0 x1 x2 (ix2 r k) = hid x1 (fun k => x2 (ix2 0 k)) (fun j => x0 (ix2 r j)) k := by
  unfold hiddenOf hid
  refine (maximumf_apply _ _ _).trans ?_
  refine congrArg₂ max ?_ rfl
  refine (addf_apply _ _ _).trans ?_
  refine congrArg₂ (· + ·) ?_ ?_
  · refine (Cert.LibMat.matmul_plain_apply dot_S2000x128_S128x256_S2000x256_1_0_0_1_n_n_wf none _ _ r k).trans ?_
    refine Finset.sum_congr rfl fun j _ => ?_
    rw [shapeCast_self]
    rfl
  · refine (broadcastTo_1b_ab_apply _ _ r k).trans ?_
    rw [shapeCast_self]

/-- The second stage at row `r`, column `c`. -/
theorem logitsOf_apply (Hd : FVec Ideal S2000x256 .f32) (x3 : Vec Ideal S256x64 .f32) (x4 : Vec Ideal S1x64 .f32)
    (r : Fin 2000) (c : Fin 64) :
    logitsOf Hd x3 x4 (ix2 r c) = (∑ k : Fin 256, Hd (ix2 r k) * x3 (ix2 k c)) + x4 (ix2 0 c) := by
  unfold logitsOf
  refine (addf_apply _ _ _).trans ?_
  refine congrArg₂ (· + ·) ?_ ?_
  · refine (Cert.LibMat.matmul_plain_apply dot_S2000x256_S256x64_S2000x64_1_0_0_1_n_n_wf none _ _ r c).trans ?_
    rfl
  · refine (broadcastTo_1b_ab_apply _ _ r c).trans ?_
    rw [shapeCast_self]

/-- The row maximum as both programs take it: the fold from −∞, joined with −∞. -/
def rowMaxOf (L : FVec Ideal S2000x64 .f32) (r : Fin 2000) : EReal :=
  max negInf ((Finset.univ : Finset (Fin 64)).fold max negInf (fun c => L (ix2 r c)))

/-- A shifted exponential at row `r`, column `c`. -/
theorem shiftedExp_apply (L : FVec Ideal S2000x64 .f32) (r : Fin 2000) (c : Fin 64) :
    shiftedExp L (ix2 r c) = Ideal.exp (L (ix2 r c) - rowMaxOf L r) := by
  unfold shiftedExp rowMaxOf
  show Ideal.exp (L (ix2 r c) - _) = _
  refine congrArg (fun z => Ideal.exp (L (ix2 r c) - z)) ?_
  refine (Cert.LibRows.broadcastTo_a1_ab_apply _ _ r c).trans ?_
  refine (Cert.LibRows.shapeCast_a_a1_apply _ _ r 0).trans ?_
  refine (maximumf_apply _ _ _).trans ?_
  refine congrArg₂ max rfl ?_
  exact Cert.LibRows.laneMax_apply L _ _ _ _ r

/-- The pooled softmax at column `c`: the sum over the tile's rows of the row's softmax there. -/
theorem pooledOf_apply (L : FVec Ideal S2000x64 .f32) (u : Fin 1) (c : Fin 64) :
    pooledOf L (ix2 u c)
      = ∑ r : Fin 2000, Ideal.div (Ideal.exp (L (ix2 r c) - rowMaxOf L r))
          (∑ c' : Fin 64, Ideal.exp (L (ix2 r c') - rowMaxOf L r)) := by
  unfold pooledOf
  refine (shapeCast_a_1a_apply _ _ u c).trans ?_
  refine (Cert.LibRows.rowSum_apply _ _ _ _ _ c).trans ?_
  refine Finset.sum_congr rfl fun r _ => ?_
  refine (divf_apply _ _ _).trans ?_
  refine congrArg₂ Ideal.div (shiftedExp_apply L r c) ?_
  refine (Cert.LibRows.broadcastTo_a1_ab_apply _ _ r c).trans ?_
  refine (Cert.LibRows.shapeCast_a_a1_apply _ _ r 0).trans ?_
  refine (Cert.LibRows.laneSum_apply _ _ _ _ _ r).trans ?_
  exact Finset.sum_congr rfl fun c' _ => shiftedExp_apply L r c'

/-- A tile's contribution at column `c`: the sum over its 2000 rows of `soft` of the row, with the
    weights and bias rows as the body loads them. -/
theorem payload_apply (x0 : Vec Ideal S2000x128 .f32) (x1 : Vec Ideal S128x256 .f32) (x2 : Vec Ideal S1x256 .f32)
    (x3 : Vec Ideal S256x64 .f32) (x4 : Vec Ideal S1x64 .f32) (u : Fin 1) (c : Fin 64) :
    k0_pay3 (F := Ideal) x0 x1 x2 x3 x4 (ix2 u c)
      = ∑ r : Fin 2000, soft x1 (fun k => x2 (ix2 0 k)) x3 (fun c => x4 (ix2 0 c)) (fun j => x0 (ix2 r j)) c := by
  rw [payload_eq, pooledOf_apply]
  refine Finset.sum_congr rfl fun r _ => ?_
  have hl : ∀ c' : Fin 64, logitsOf (hiddenOf x0 x1 x2) x3 x4 (ix2 r c')
      = logit x1 (fun k => x2 (ix2 0 k)) x3 (fun c => x4 (ix2 0 c)) (fun j => x0 (ix2 r j)) c' := fun c' => by
    rw [logitsOf_apply]
    unfold logit
    refine congrArg₂ (· + ·) (Finset.sum_congr rfl fun k _ => ?_) rfl
    rw [hiddenOf_apply]
  have hm : rowMaxOf (logitsOf (hiddenOf x0 x1 x2) x3 x4) r
      = rowMax x1 (fun k => x2 (ix2 0 k)) x3 (fun c => x4 (ix2 0 c)) (fun j => x0 (ix2 r j)) := by
    unfold rowMaxOf rowMax
    refine congrArg (max negInf) ?_
    exact congrArg (fun f => Finset.fold max negInf f (Finset.univ : Finset (Fin 64))) (funext hl)
  unfold soft expo
  rw [hm]
  refine congrArg₂ Ideal.div ?_ (Finset.sum_congr rfl fun c' _ => ?_)
  · rw [hl]
  · rw [hl]

end Cert.KernelIdeal.Tile

end
-- ==== Proof.KernelValue.lean ====
import proofs.«171319_j33406255628786_1_alg».proof.Proof.Running
import proofs.«171319_j33406255628786_1_alg».proof.Proof.TileValue
import Idealize.ShloMosaic.Lib.StableHlo.Run

noncomputable section

open scoped BigOperators

open Idealize.ShloMosaic Idealize.ShloMosaic.TcCoe Idealize.SL.Sem
open Idealize.ShloMosaic.Pipeline (Dat)

/-!
  The kernel's pooled vector, read at an index over the extended reals.

  At grid point `t` the feature window's block is rows `2000·t … 2000·t + 1999` of the aggregated
  features (the array the host's scatter-add wrote before the region); the two weight windows and the
  two bias windows are their whole arrays at every point, the bias rows being the host's reshapes of
  the bias vectors.  So tile `t` contributes, at column `c`, the sum of `soft` over its rows, the
  accumulator after point `n` is zero plus the contributions of tiles `0 … n`, and after the last
  point the pooled vector is `0 + ∑ n, soft (row n) c` over all 40000 nodes, regrouped by tile.
-/

namespace Cert.KernelIdeal.KValue

open Cert.KernelIdeal Cert.KernelIdeal.Gen Cert.KernelIdeal.Running
open Idealize.ShloMosaic.ValueIdx Cert.RowSoftmax

variable (m : (ℓ : Loc nD τ sig) → Buf (Elt Ideal) ℓ)

/-! ## The windows' blocks -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)

/-- A grid point as a tile number. -/
def tileOf (t : Fin cfg0.N) : Fin 20 := ⟨t.val, lt_of_lt_of_eq t.isLt N_0⟩

/-- The feature block at point `t`, row `r`, is row `2000·t + r` of the aggregated features. -/
theorem featBlock_apply (c : Dev nD) (t : Fin cfg0.N) (r : Fin 2000) (j : Fin 128) :
    (iblk m c 0 t : Vec Ideal S2000x128 .f32) (ix2 r j) = V m c main_v9 (ix2 (node (tileOf t) r) j) := by
  unfold iblk
  rw [View.read_apply]
  show V m c main_v9 _ = V m c main_v9 _
  congr 1
  funext a
  apply Fin.ext
  match a with
  | ⟨0, _⟩ => show win0_0.index t 0 * 2000 + 1 * r.val = 2000 * t.val + r.val; rw [(index0 t).1]; omega
  | ⟨1, _⟩ => show win0_0.index t 1 * 128 + 1 * j.val = j.val; rw [(index0 t).2]; omega

/-- The first weight window's block is the whole of `W1`. -/
theorem w1Block_eq (c : Dev nD) (t : Fin cfg0.N) :
    (iblk m c 1 t : Vec Ideal S128x256 .f32) = m ((c.tc : Thread nD τ).loc main_arg3) := by
  have hz' : (fun a => win0_1.index t a * main_arg3.ty.shape.size a) = fun _ => 0 := funext fun a => by
    match a with
    | ⟨0, _⟩ => show win0_1.index t 0 * 128 = 0; rw [(index1 t).1]
    | ⟨1, _⟩ => show win0_1.index t 1 * 256 = 0; rw [(index1 t).2]
  unfold iblk
  refine (Memref.read_access_unit_zero (Elt Ideal) main_arg3 hz' (fun a => by rw [congrFun hz' a]; simp) _).trans ?_
  exact V_main_arg3 m c

/-- The second weight window's block is the whole of `W2`. -/
theorem w2Block_eq (c : Dev nD) (t : Fin cfg0.N) :
    (iblk m c 3 t : Vec Ideal S256x64 .f32) = m ((c.tc : Thread nD τ).loc main_arg5) := by
  have hz' : (fun a => win0_3.index t a * main_arg5.ty.shape.size a) = fun _ => 0 := funext fun a => by
    match a with
    | ⟨0, _⟩ => show win0_3.index t 0 * 256 = 0; rw [(index3 t).1]
    | ⟨1, _⟩ => show win0_3.index t 1 * 64 = 0; rw [(index3 t).2]
  unfold iblk
  refine (Memref.read_access_unit_zero (Elt Ideal) main_arg5 hz' (fun a => by rw [congrFun hz' a]; simp) _).trans ?_
  exact V_main_arg5 m c

/-- The host reshaped `b1` to one row before the region. -/
theorem b1Row_eq (c : Dev nD) :
    (V m c main_v10 : S1x256.Idx → EReal)
      = shapeCast S1x256 (m ((c.tc : Thread nD τ).loc main_arg4)) shapeCasts_S256_S1x256 := by
  dsimp only [Gen.V, Gen.V0]
  simp only [hostOps0, List.flatten_cons, List.flatten_nil, List.append_nil, List.cons_append, List.nil_append]
  after_results
  rfl

/-- The host reshaped `b2` to one row before the region. -/
theorem b2Row_eq (c : Dev nD) :
    (V m c main_v11 : S1x64.Idx → EReal)
      = shapeCast S1x64 (m ((c.tc : Thread nD τ).loc main_arg6)) shapeCasts_S64_S1x64 := by
  dsimp only [Gen.V, Gen.V0]
  simp only [hostOps0, List.flatten_cons, List.flatten_nil, List.append_nil, List.cons_append, List.nil_append]
  after_results
  rfl

/-- The first bias window's block, at `(0, k)`, is `b1 k`. -/
theorem b1Block_apply (c : Dev nD) (t : Fin cfg0.N) (k : Fin 256) :
    (iblk m c 2 t : Vec Ideal S1x256 .f32) (ix2 0 k) = m ((c.tc : Thread nD τ).loc main_arg4) (ix1 k) := by
  have hz' : (fun a => win0_2.index t a * main_v10.ty.shape.size a) = fun _ => 0 := funext fun a => by
    match a with
    | ⟨0, _⟩ => show win0_2.index t 0 * 1 = 0; rw [(index2 t).1]
    | ⟨1, _⟩ => show win0_2.index t 1 * 256 = 0; rw [(index2 t).2]
  have hb : (iblk m c 2 t : Vec Ideal S1x256 .f32) = V m c main_v10 := by
    unfold iblk
    exact Memref.read_access_unit_zero (Elt Ideal) main_v10 hz' (fun a => by rw [congrFun hz' a]; simp) _
  rw [hb, b1Row_eq]
  exact shapeCast_a_1a_apply _ _ 0 k

/-- The second bias window's block, at `(0, c)`, is `b2 c`. -/
theorem b2Block_apply (c : Dev nD) (t : Fin cfg0.N) (col : Fin 64) :
    (iblk m c 4 t : Vec Ideal S1x64 .f32) (ix2 0 col) = m ((c.tc : Thread nD τ).loc main_arg6) (ix1 col) := by
  have hz' : (fun a => win0_4.index t a * main_v11.ty.shape.size a) = fun _ => 0 := funext fun a => by
    match a with
    | ⟨0, _⟩ => show win0_4.index t 0 * 1 = 0; rw [(index4 t).1]
    | ⟨1, _⟩ => show win0_4.index t 1 * 64 = 0; rw [(index4 t).2]
  have hb : (iblk m c 4 t : Vec Ideal S1x64 .f32) = V m c main_v11 := by
    unfold iblk
    exact Memref.read_access_unit_zero (Elt Ideal) main_v11 hz' (fun a => by rw [congrFun hz' a]; simp) _
  rw [hb, b2Row_eq]
  exact shapeCast_a_1a_apply _ _ 0 col

/-! ## The tiles' contributions and their sum -/

/-- `soft` of a feature row, at the kernel's weights and biases. -/
abbrev softK (c : Dev nD) (x : Fin 128 → EReal) (col : Fin 64) : EReal :=
  soft (m ((c.tc : Thread nD τ).loc main_arg3)) (fun k => m ((c.tc : Thread nD τ).loc main_arg4) (ix1 k))
    (m ((c.tc : Thread nD τ).loc main_arg5)) (fun k => m ((c.tc : Thread nD τ).loc main_arg6) (ix1 k)) x col

/-- Tile `t` contributes, at column `col`, the sum of `soft` over its 2000 rows of the aggregated features. -/
theorem tilePartial_apply (c : Dev nD) (t : Fin cfg0.N) (u : Fin 1) (col : Fin 64) :
    tilePartial m c t (ix2 u col)
      = ∑ r : Fin 2000, softK m c (fun j => V m c main_v9 (ix2 (node (tileOf t) r) j)) col := by
  unfold tilePartial
  refine (Cert.KernelIdeal.Tile.payload_apply (iblk m c 0 t) (iblk m c 1 t) (iblk m c 2 t) (iblk m c 3 t) (iblk m c 4 t) u col).trans ?_
  refine Finset.sum_congr rfl fun r _ => ?_
  have h0 : (fun j : Fin 128 => (iblk m c 0 t : Vec Ideal S2000x128 .f32) (ix2 r j))
      = fun j => V m c main_v9 (ix2 (node (tileOf t) r) j) := funext fun j => featBlock_apply m c t r j
  have h2 : (fun k : Fin 256 => (iblk m c 2 t : Vec Ideal S1x256 .f32) (ix2 0 k))
      = fun k => m ((c.tc : Thread nD τ).loc main_arg4) (ix1 k) := funext fun k => b1Block_apply m c t k
  have h4 : (fun k : Fin 64 => (iblk m c 4 t : Vec Ideal S1x64 .f32) (ix2 0 k))
      = fun k => m ((c.tc : Thread nD τ).loc main_arg6) (ix1 k) := funext fun k => b2Block_apply m c t k
  rw [h0, h2, h4, w1Block_eq, w2Block_eq]

/-- The accumulator after point `n`, at a column: zero plus the contributions of tiles `0 … n`. -/
theorem running_apply (c : Dev nD) (i : S1x64.Idx) : ∀ (n : ℕ) (h : n < cfg0.N),
    running m c n h i
      = zeroW + ∑ t : Fin (n + 1), tilePartial m c ⟨t.val, lt_of_lt_of_le t.isLt (Nat.succ_le_of_lt h)⟩ i
  | 0, h => by
    rw [Fin.sum_univ_one]
    rfl
  | n + 1, h => by
    have hstep : running m c (n + 1) h i = running m c n (Nat.lt_of_succ_lt h) i + tilePartial m c ⟨n + 1, h⟩ i := by
      show k0_pay1 (tilePartial m c ⟨n + 1, h⟩) (running m c n _) i = _
      unfold k0_pay1
      rw [shapeCast_self]
      rfl
    rw [hstep, running_apply c i n (Nat.lt_of_succ_lt h), add_assoc]
    refine congrArg (zeroW + ·) ?_
    exact (Fin.sum_univ_castSucc
      (fun t : Fin (n + 2) => tilePartial m c ⟨t.val, lt_of_lt_of_le t.isLt (Nat.succ_le_of_lt h)⟩ i)).symm

/-- The pooled vector at column `col`: zero plus the sum of `soft` over all 40000 rows of the aggregated features. -/
theorem pooled_apply (c : Dev nD) (u : Fin 1) (col : Fin 64) :
    pooled m c (ix2 u col) = zeroW + ∑ n : Fin 40000, softK m c (fun j => V m c main_v9 (ix2 n j)) col := by
  show running m c 19 _ (ix2 u col) = _
  rw [running_apply m c (ix2 u col) 19 lastPoint.isLt, sum_nodes_eq_sum_tiles]
  refine congrArg (zeroW + ·) (Finset.sum_congr rfl fun t _ => ?_)
  exact tilePartial_apply m c ⟨t.val, _⟩ u col

end Cert.KernelIdeal.KValue

end
-- ==== Proof.KernelRun.lean ====
import proofs.«171319_j33406255628786_1_alg».proof.Proof.KernelValue

noncomputable section

open Idealize.ShloMosaic Idealize.ShloMosaic.TcCoe Idealize.SL.Sem
open Idealize.ShloMosaic.Pipeline (Dat)

/-!
  The kernel's run, read: its two results as functions of the arguments.

  After the region the host scales the pooled vector by the literal 2 (the first result) and sends
  the scaled vector through the read-out layers — a product with `W3` plus `b3`, the maximum with
  zero, a product with `W4` plus `b4`, and a reshape to one entry (the second result).  The region's
  result array leaves the region at the accumulator after the last grid point and every argument as
  launched, so each host line after the region computes from those.
-/

namespace Cert.KernelIdeal.KRun

open Cert.KernelIdeal Cert.KernelIdeal.Gen Cert.KernelIdeal.Running

variable (m : (ℓ : Loc nD τ sig) → Buf (Elt Ideal) ℓ) (ρ : Dev nD → PrngReg)

/-- The read-out layers after the pooling, as one function of the pooled vector and the four read-out arrays. -/
def readout (fps : FVec Ideal S1x64 .f32) (w3 : FVec Ideal S64x256 .f32) (b3 : FVec Ideal S256 .f32)
    (w4 : FVec Ideal S256x1 .f32) (b4 : FVec Ideal S1 .f32) : FVec Ideal S1 .f32 :=
  shapeCast S1
    (addf
      (Host.dotGeneral dot_S1x256_S256x1_S1x1_1_0_0_1_n_n none
        (maximumf
          (addf (Host.dotGeneral dot_S1x64_S64x256_S1x256_1_0_0_1_n_n none fps w3)
            (broadcastInDim S1x256 ![1] bcast_S256_S1x256_1 b3))
          (broadcastInDim S1x256 ![] bcast_S_S1x256 (constant S_ .f32 0x00000000#32)))
        w4)
      (broadcastInDim S1x1 ![1] bcast_S1_S1x1_1 b4))
    shapeCasts_S1x1_S1

/-- The first result: the pooled vector times the literal 2. -/
def scaled (c : Dev nD) : Buf (Elt Ideal) ((c.tc : Thread nD τ).loc main_v14) :=
  mulf (F := Ideal) (s := S1x64) (φ := .f32) (pooled m c)
    (broadcastInDim S1x64 ![] bcast_S_S1x64 (constant (F := Ideal) S_ .f32 0x40000000#32))

/-- The first result at an index, from the accumulator's value there. -/
theorem scaled_apply (c : Dev nD) (i : S1x64.Idx) (z : EReal) (h : pooled m c i = z) :
    scaled m c i = z * Ideal.ofBits .f32 0x40000000#32 := by
  subst h
  rfl

/-- The second result: the read-out of the first. -/
def readoutResult (c : Dev nD) : Buf (Elt Ideal) ((c.tc : Thread nD τ).loc main_v22) :=
  readout (scaled m c) (m ((c.tc : Thread nD τ).loc main_arg7)) (m ((c.tc : Thread nD τ).loc main_arg8)) (m ((c.tc : Thread nD τ).loc main_arg9)) (m ((c.tc : Thread nD τ).loc main_arg10))

/-- What the region leaves in its result array: the accumulator after the last point. -/
theorem exit_pooled (c : Dev nD) :
    Pipeline.withArrays (cfgs 0).spec c (V0 m c) (fun w => (dats m 0 c).arrAt w (cfgs 0).N) (Proc.devRef .tc main_v12)
      = pooled m c :=
  (Pipeline.withArrays_arr spec0 launch0.win.arr_inj c _ _ 5).trans (array_eq_pooled m c)

/-- The four read-out arguments leave the region as launched. -/
theorem exit_arg7 (c : Dev nD) :
    Pipeline.withArrays (cfgs 0).spec c (V0 m c) (fun w => (dats m 0 c).arrAt w (cfgs 0).N) (Proc.devRef .tc main_arg7)
      = m ((c.tc : Thread nD τ).loc main_arg7) :=
  (Pipeline.withArrays_of_ne _ c (V0 m c) _ main_arg7 (by decide)).trans (V_main_arg7 m c)
theorem exit_arg8 (c : Dev nD) :
    Pipeline.withArrays (cfgs 0).spec c (V0 m c) (fun w => (dats m 0 c).arrAt w (cfgs 0).N) (Proc.devRef .tc main_arg8)
      = m ((c.tc : Thread nD τ).loc main_arg8) :=
  (Pipeline.withArrays_of_ne _ c (V0 m c) _ main_arg8 (by decide)).trans (V_main_arg8 m c)
theorem exit_arg9 (c : Dev nD) :
    Pipeline.withArrays (cfgs 0).spec c (V0 m c) (fun w => (dats m 0 c).arrAt w (cfgs 0).N) (Proc.devRef .tc main_arg9)
      = m ((c.tc : Thread nD τ).loc main_arg9) :=
  (Pipeline.withArrays_of_ne _ c (V0 m c) _ main_arg9 (by decide)).trans (V_main_arg9 m c)
theorem exit_arg10 (c : Dev nD) :
    Pipeline.withArrays (cfgs 0).spec c (V0 m c) (fun w => (dats m 0 c).arrAt w (cfgs 0).N) (Proc.devRef .tc main_arg10)
      = m ((c.tc : Thread nD τ).loc main_arg10) :=
  (Pipeline.withArrays_of_ne _ c (V0 m c) _ main_arg10 (by decide)).trans (V_main_arg10 m c)

/-- The scaling line's result after the host lines that follow the region. -/
theorem tail_scaled (c : Dev nD) :
    Pipeline.afterTail₀ cfgs (dats m) 0 (V0 m) [hostOps1, hostOps1_1, hostOps1_2] c main_v14 = scaled m c := by
  unfold Pipeline.afterTail₀
  simp only [hostOps1, hostOps1_1, hostOps1_2, List.flatten_cons, List.flatten_nil, List.append_nil, List.cons_append,
    List.nil_append]
  after_results
  rw [exit_pooled]
  rfl

/-- The last line's result after the host lines that follow the region. -/
theorem tail_readout (c : Dev nD) :
    Pipeline.afterTail₀ cfgs (dats m) 0 (V0 m) [hostOps1, hostOps1_1, hostOps1_2] c main_v22 = readoutResult m c := by
  unfold Pipeline.afterTail₀
  simp only [hostOps1, hostOps1_1, hostOps1_2, List.flatten_cons, List.flatten_nil, List.append_nil, List.cons_append,
    List.nil_append]
  after_results
  rw [exit_pooled, exit_arg7, exit_arg8, exit_arg9, exit_arg10]
  rfl

/-- Every weakly fair execution of the kernel's program terminates with its two results at `scaled` and
    `readoutResult` and its eleven arguments unchanged. -/
theorem run : θ_run defs (onTc (τ := τ) (main (F := Ideal))) ⟨m, fun _ => 0, ρ⟩ fun r => ∀ c : Dev nD,
      r.2.mem ((c.tc : Thread nD τ).loc main_v14) = scaled m c
      ∧ r.2.mem ((c.tc : Thread nD τ).loc main_v22) = readoutResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v14 (Pipeline.mem_restRefs_of main_v14 (by decide) (by decide))).trans (tail_scaled m c),
      ((h c).2 main_v22 (Pipeline.mem_restRefs_of main_v22 (by decide) (by decide))).trans (tail_readout m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KRun

end
-- ==== Proof.RefValue.lean ====
import proofs.«171319_j33406255628786_1_alg».proof.Proof.Gen.ReferenceIdeal.Read
import proofs.«171319_j33406255628786_1_alg».proof.Proof.RowSoftmax
import proofs.«171319_j33406255628786_1_alg».proof.Proof.LibRows

noncomputable section

open scoped BigOperators

/-!
  The reference's pooled vector, read at an index over the extended reals.

  One pass of the reference's loop sends the aggregated features `h` (the scatter-add of the
  gathered rows, never opened here) through the same two layers and the same softmax, on all 40000
  rows at once, and sums the rows.  Read at column `c` it is `∑ n, soft (row n of h) c`: a
  `dot_general` is the sum over the contracted coordinate, the biases are broadcast along the rows,
  the row maximum is the fold of `max` from −∞, and each `reduce` with an add body is its zero
  initial value plus the sum.  The loop body is traced twice into identical operations, so the second
  pass's vector is the first's; the result is `(zeros + pass) + pass`.
-/

namespace Cert.ReferenceIdeal.RefValue

open Cert.ReferenceIdeal Cert.ReferenceIdeal.Gen Cert.ReferenceIdeal.Read
open Idealize.ShloMosaic Idealize.ShloMosaic.ValueIdx Cert.RowSoftmax

variable (x0 : (⟨S40000x128, .f32⟩ : BufTy).Contents (Elt Ideal)) (x1 x2 : (⟨S640000, .i32⟩ : BufTy).Contents (Elt Ideal))
  (x3 : (⟨S128x256, .f32⟩ : BufTy).Contents (Elt Ideal)) (x4 : (⟨S256, .f32⟩ : BufTy).Contents (Elt Ideal))
  (x5 : (⟨S256x64, .f32⟩ : BufTy).Contents (Elt Ideal)) (x6 : (⟨S64, .f32⟩ : BufTy).Contents (Elt Ideal))

/-- Node `n`'s row of the aggregated features. -/
abbrev featRow (n : Fin 40000) : Fin 128 → EReal := fun j => val_main_v10 (F := Ideal) x0 x1 x2 (ix2 n j)

/-- The rectified first layer at node `n`, unit `k`. -/
theorem hidden_apply (n : Fin 40000) (k : Fin 256) :
    val_main_v15 (F := Ideal) x0 x1 x2 x3 x4 (ix2 n k) = hid x3 (fun k => x4 (ix1 k)) (featRow x0 x1 x2 n) k := by
  rw [val_main_v15_apply, val_main_v14_apply, val_main_v11_apply, val_main_v13_apply, val_main_v12_apply,
    val_main_call0_v0_apply, val_main_call0_cst_apply]
  unfold hid
  have e1 : ∀ j : Fin 128, lidx_main_v11 (ix2 n k) j = ix2 n j := fun j =>
    funext fun a => by match a with | ⟨0, _⟩ => rfl | ⟨1, _⟩ => rfl
  have e2 : ∀ j : Fin 128, ridx_main_v11 (ix2 n k) j = ix2 j k := fun j =>
    funext fun a => by match a with | ⟨0, _⟩ => rfl | ⟨1, _⟩ => rfl
  have e3 : idx_main_v12 (idx_main_v13 (ix2 n k)) = ix1 k :=
    funext fun a => by match a with | ⟨0, _⟩ => rfl
  simp only [e1, e2, e3]
  rfl

/-- The logits at node `n`, column `c`. -/
theorem logits_apply (n : Fin 40000) (c : Fin 64) :
    val_main_v19 (F := Ideal) x0 x1 x2 x3 x4 x5 x6 (ix2 n c)
      = logit x3 (fun k => x4 (ix1 k)) x5 (fun c => x6 (ix1 c)) (featRow x0 x1 x2 n) c := by
  rw [val_main_v19_apply, val_main_v16_apply, val_main_v18_apply, val_main_v17_apply]
  unfold logit
  have e1 : ∀ k : Fin 256, lidx_main_v16 (ix2 n c) k = ix2 n k := fun k =>
    funext fun a => by match a with | ⟨0, _⟩ => rfl | ⟨1, _⟩ => rfl
  have e2 : ∀ k : Fin 256, ridx_main_v16 (ix2 n c) k = ix2 k c := fun k =>
    funext fun a => by match a with | ⟨0, _⟩ => rfl | ⟨1, _⟩ => rfl
  have e3 : idx_main_v17 (idx_main_v18 (ix2 n c)) = ix1 c :=
    funext fun a => by match a with | ⟨0, _⟩ => rfl
  simp only [e1, e2, e3, hidden_apply]
  rfl

/-- The row maximum at node `n`. -/
theorem rowMax_apply (n : Fin 40000) :
    val_main_v22 (F := Ideal) x0 x1 x2 x3 x4 x5 x6 (ix1 n)
      = rowMax x3 (fun k => x4 (ix1 k)) x5 (fun c => x6 (ix1 c)) (featRow x0 x1 x2 n) := by
  rw [val_main_v22_apply, val_main_v21_apply, val_main_cst_3_apply]
  unfold rowMax val_main_v20
  refine congrArg₂ max rfl ?_
  refine (Cert.LibRows.hostLaneMax_apply _ _ reducesTo_S40000x64_S40000_d1 (by decide) h_S_ n).trans ?_
  refine congrArg (fun f => Finset.fold max negInf f (Finset.univ : Finset (Fin 64))) ?_
  exact funext fun c => logits_apply x0 x1 x2 x3 x4 x5 x6 n c

/-- A shifted exponential at node `n`, column `c`. -/
theorem expo_apply (n : Fin 40000) (c : Fin 64) :
    val_main_v26 (F := Ideal) x0 x1 x2 x3 x4 x5 x6 (ix2 n c)
      = expo x3 (fun k => x4 (ix1 k)) x5 (fun c => x6 (ix1 c)) (featRow x0 x1 x2 n) c := by
  rw [val_main_v26_apply, val_main_v25_apply, val_main_v24_apply, val_main_v23_apply]
  have e1 : idx_main_v23 (idx_main_v24 (ix2 n c)) = ix1 n :=
    funext fun a => by match a with | ⟨0, _⟩ => rfl
  rw [e1, rowMax_apply, logits_apply, Ideal.hostUnary_exp_def, Ideal.subf_def]
  unfold expo
  rfl

/-- One pass's pooled vector at column `c`: the sum over all nodes of the node's softmax there. -/
theorem pass_apply (u : Fin 1) (c : Fin 64) :
    val_main_v32 (F := Ideal) x0 x1 x2 x3 x4 x5 x6 (ix2 u c)
      = ∑ n : Fin 40000, soft x3 (fun k => x4 (ix1 k)) x5 (fun c => x6 (ix1 c)) (featRow x0 x1 x2 n) c := by
  rw [val_main_v32_apply, val_main_v31_apply, val_main_cst_5_apply]
  refine (congrArg (· + _) (Ideal.ofBits_zero_f32)).trans ?_
  rw [zero_add]
  refine Finset.sum_congr rfl fun n _ => ?_
  have e1 : idx_main_v31 (idx_main_v32 (ix2 u c)) n = ix2 n c :=
    funext fun a => by match a with | ⟨0, _⟩ => rfl | ⟨1, _⟩ => rfl
  rw [e1, val_main_v30_apply, val_main_v29_apply, val_main_v28_apply]
  have e2 : idx_main_v28 (idx_main_v29 (ix2 n c)) = ix1 n :=
    funext fun a => by match a with | ⟨0, _⟩ => rfl
  rw [e2, val_main_v27_apply, val_main_cst_4_apply, expo_apply]
  unfold soft
  refine congrArg (Ideal.div _) ?_
  refine (congrArg (· + _) (Ideal.ofBits_zero_f32)).trans ?_
  rw [zero_add]
  refine Finset.sum_congr rfl fun c' _ => ?_
  have e3 : idx_main_v27 (ix1 n) c' = ix2 n c' :=
    funext fun a => by match a with | ⟨0, _⟩ => rfl | ⟨1, _⟩ => rfl
  rw [e3, expo_apply]

/-- The second pass computes the first pass's vector again. -/
theorem second_pass_eq : val_main_v65 (F := Ideal) x0 x1 x2 x3 x4 x5 x6 = val_main_v32 (F := Ideal) x0 x1 x2 x3 x4 x5 x6 := rfl

/-- The reference's first result at column `c`: zero, plus the pooled vector, plus the pooled vector. -/
theorem result_apply (u : Fin 1) (c : Fin 64) :
    val_main_v66 (F := Ideal) x0 x1 x2 x3 x4 x5 x6 (ix2 u c)
      = (0 + ∑ n : Fin 40000, soft x3 (fun k => x4 (ix1 k)) x5 (fun c => x6 (ix1 c)) (featRow x0 x1 x2 n) c)
        + ∑ n : Fin 40000, soft x3 (fun k => x4 (ix1 k)) x5 (fun c => x6 (ix1 c)) (featRow x0 x1 x2 n) c := by
  rw [val_main_v66_apply, val_main_v33_apply, second_pass_eq, pass_apply, val_main_v0_apply, val_main_cst_apply,
    Ideal.addf_def, Ideal.addf_def, Ideal.ofBits_def, Ideal.ofBits_zero_f32]

end Cert.ReferenceIdeal.RefValue

end
-- ==== Proof.Doubling.lean ====
/-
  Adding an extended real to itself, starting from zero, is multiplying it by two.  The reference
  accumulates the same pooled vector twice into a zero vector; the kernel pools once and scales by
  the literal 2.  On the extended reals the two agree at every value, the infinities included:
  ⊤ + ⊤ = ⊤ = ⊤ · 2 and ⊥ + ⊥ = ⊥ = ⊥ · 2, so no finiteness is needed.
-/
import Mathlib.Data.EReal.Basic
import Mathlib.Data.EReal.Operations

namespace Cert.Doubling

/-- `(0 + x) + x = x * 2` for every extended real `x`. -/
theorem zero_add_add_self (x : EReal) : (0 + x) + x = x * 2 := by
  rw [zero_add]
  induction x using EReal.rec with
  | bot =>
    rw [EReal.bot_add, EReal.bot_mul_of_pos (by norm_num)]
  | coe r =>
    rw [← EReal.coe_add, show (2 : EReal) = ((2 : ℝ) : EReal) from rfl, ← EReal.coe_mul, mul_two]
  | top =>
    rw [EReal.top_add_top, EReal.top_mul_of_pos (by norm_num)]

end Cert.Doubling
-- ==== Proof.Consts.lean ====
/-
  The one float literal this kernel's host code adds: the pattern of 2.0, by which the pooled vector is
  scaled, denotes the extended real 2.
-/
import Idealize.ShloMosaic.PureOps.Ideal

noncomputable section

namespace Cert.Consts

open Idealize.ShloMosaic

/-- `2.0` denotes `2`. -/
theorem ofBits_two : Ideal.ofBits .f32 0x40000000#32 = 2 := by
  simp [Ideal.ofBits, Ideal.ieee, -EReal.coe_mul]; norm_num
  rfl

end Cert.Consts

end
-- ==== Proof.Bridge.lean ====
import proofs.«171319_j33406255628786_1_alg».proof.Defs
import proofs.«171319_j33406255628786_1_alg».proof.Proof.Gen.Pre_finite_inputs
import proofs.«171319_j33406255628786_1_alg».proof.Proof.KernelRun
import proofs.«171319_j33406255628786_1_alg».proof.Proof.RefValue
import proofs.«171319_j33406255628786_1_alg».proof.Proof.Doubling
import proofs.«171319_j33406255628786_1_alg».proof.Proof.Consts

noncomputable section

open scoped BigOperators

open Idealize.ShloMosaic Idealize.ShloMosaic.TcCoe Idealize.SL.Sem

/-!
  The two programs compute one function of the arguments.

  Both begin with the same gather and scatter-add, so the features the kernel's region finds are the
  reference's aggregated features of the same arguments.  With `S c = ∑ n, soft (row n) c` over all
  nodes, the kernel's first result is `(0 + S c) · 2` and the reference's is `(0 + S c) + S c`: equal
  at every extended real, since `x + x = x · 2` also at the infinities.  The second result applies
  the same read-out layers to the first on both sides.
-/

namespace Cert.Bridge

open Idealize.ShloMosaic.ValueIdx Cert.RowSoftmax

variable (m : (ℓ : Loc Cert.KernelIdeal.nD Cert.KernelIdeal.τ Cert.KernelIdeal.sig) → Buf (Elt Ideal) ℓ)

/-- The array the kernel's region finds as its feature window is the reference's aggregated features. -/
theorem feats_eq (c : Dev Cert.KernelIdeal.nD) :
    (Cert.KernelIdeal.Gen.V m c Cert.KernelIdeal.main_v9 : Cert.KernelIdeal.S40000x128.Idx → EReal)
      = Cert.ReferenceIdeal.Read.val_main_v10 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  dsimp only [Cert.KernelIdeal.Gen.V, Cert.KernelIdeal.Gen.V0]
  simp only [Cert.KernelIdeal.Gen.hostOps0, List.flatten_cons, List.flatten_nil, List.append_nil, List.cons_append,
    List.nil_append]
  after_results
  rfl

/-- The kernel's first result is the reference's, at the same arguments. -/
theorem scaled_eq (c : Dev Cert.KernelIdeal.nD) :
    (Cert.KernelIdeal.KRun.scaled m c : Cert.KernelIdeal.S1x64.Idx → EReal)
      = Cert.ReferenceIdeal.Read.val_main_v66 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) := by
  funext i
  obtain ⟨u, col, rfl⟩ : ∃ (u : Fin 1) (col : Fin 64), i = ix2 u col := ⟨i 0, i 1, eq_ix2 i⟩
  rw [Cert.ReferenceIdeal.RefValue.result_apply]
  rw [Cert.KernelIdeal.KRun.scaled_apply m c (ix2 u col) _ (Cert.KernelIdeal.KValue.pooled_apply m c u col),
    Cert.Consts.ofBits_two, show (zeroW : EReal) = 0 from Ideal.ofBits_zero_f32, zero_add, feats_eq]
  exact (Cert.Doubling.zero_add_add_self _).symm

/-- The kernel's second result is the reference's, at the same arguments: the same read-out of equal vectors. -/
theorem readout_eq (c : Dev Cert.KernelIdeal.nD) :
    (Cert.KernelIdeal.KRun.readoutResult m c : Cert.KernelIdeal.S1.Idx → EReal)
      = Cert.ReferenceIdeal.Read.val_main_v74 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) := by
  show Cert.KernelIdeal.KRun.readout (Cert.KernelIdeal.KRun.scaled m c) _ _ _ _ = _
  rw [scaled_eq]
  rfl

/-- At the ideal values the kernel and the reference, run from memories that agree on the arguments, both
    terminate with equal results, element by element. -/
theorem algebraic : Cert.algebraic_KernelIdeal_ReferenceIdeal := by
  intro m ρ m' ρ' _ hagree
  refine ⟨fun c => Cert.KernelIdeal.KRun.scaled m c, fun c => Cert.KernelIdeal.KRun.readoutResult m c,
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v66_eq, (hagree c).1, (hagree c).2.1, (hagree c).2.2.1, (hagree c).2.2.2.1,
      (hagree c).2.2.2.2.1, (hagree c).2.2.2.2.2.1, (hagree c).2.2.2.2.2.2.1]
    exact (scaled_eq m c).symm
  · rw [Cert.ReferenceIdeal.Read.val_main_v74_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact (readout_eq m c).symm

end Cert.Bridge

end
-- ==== Proof.lean ====
/-
  A graph-pooling kernel against its reference, over the extended reals.

  Both programs aggregate neighbour features by the same gather and scatter-add, send every node's
  row through two affine layers with a rectifier between them, normalise the 64 logits of each node by
  a softmax, and sum the nodes column by column; a small read-out follows.  The reference runs its
  loop body twice and adds the pooled vector twice into zeros; the kernel pools once — 20 tiles of
  2000 nodes accumulated into one resident block — and scales by 2.

  The three programs' frames: the two kernel programs by their generated frame certificates, the
  reference by its generated run.  The idealizing pass rewrote nothing, so there is nothing to
  preserve.  The algebraic claim: both first results are functions of the column sums
  `S c = ∑ n, soft (row n) c`, the kernel's `(0 + S c) · 2` (the sum regrouped by tile) and the
  reference's `(0 + S c) + S c`, equal at every extended real; the second results are the same
  read-out of the first.  No finiteness of the inputs is used.
-/
import proofs.«171319_j33406255628786_1_alg».proof.Defs
import proofs.«171319_j33406255628786_1_alg».proof.Proof.Gen.Kernel
import proofs.«171319_j33406255628786_1_alg».proof.Proof.Gen.Kernel.Skeleton
import proofs.«171319_j33406255628786_1_alg».proof.Proof.Gen.Kernel.Launch
import proofs.«171319_j33406255628786_1_alg».proof.Proof.Gen.Kernel.Points
import proofs.«171319_j33406255628786_1_alg».proof.Proof.Gen.Kernel.Frame
import proofs.«171319_j33406255628786_1_alg».proof.Proof.Gen.KernelIdeal
import proofs.«171319_j33406255628786_1_alg».proof.Proof.Gen.KernelIdeal.Skeleton
import proofs.«171319_j33406255628786_1_alg».proof.Proof.Gen.KernelIdeal.Launch
import proofs.«171319_j33406255628786_1_alg».proof.Proof.Gen.KernelIdeal.Points
import proofs.«171319_j33406255628786_1_alg».proof.Proof.Gen.KernelIdeal.Frame
import proofs.«171319_j33406255628786_1_alg».proof.Proof.Gen.ReferenceIdeal
import proofs.«171319_j33406255628786_1_alg».proof.Proof.Gen.ReferenceIdeal.Run
import proofs.«171319_j33406255628786_1_alg».proof.Proof.Gen.ReferenceIdeal.Read
import proofs.«171319_j33406255628786_1_alg».proof.Proof.Gen.Pre_finite_inputs
import Idealize.ShloMosaic.Adequacy
import Idealize.ShloMosaic.Init

import proofs.«171319_j33406255628786_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2)
      (Cert.ReferenceIdeal.Value.run (F := Ideal) m ρ),
    trivial,
    Cert.Bridge.algebraic⟩

end Cert.Proof

end
